-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S20x256 : Shape := ⟨2, ![20, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S32x1024x256 .f32) (main_arg1 : FVec F S32x1024x256 .f32) (main_arg2 : FVec F S20x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  main_v13
-- ==== Kernel.lean ====
abbrev S32x1024x256 : Shape := ⟨3, ![32, 1024, 256]⟩
abbrev S20x256 : Shape := ⟨2, ![20, 256]⟩
abbrev S256x20 : Shape := ⟨2, ![256, 20]⟩
abbrev S32x1024x20 : Shape := ⟨3, ![32, 1024, 20]⟩
abbrev S2x1024x256 : Shape := ⟨3, ![2, 1024, 256]⟩
abbrev S2x1024x20 : Shape := ⟨3, ![2, 1024, 20]⟩
abbrev S2x1024 : Shape := ⟨2, ![2, 1024]⟩
abbrev S2x1024x1 : Shape := ⟨3, ![2, 1024, 1]⟩
abbrev S2x256x256 : Shape := ⟨3, ![2, 256, 256]⟩
abbrev S2x256 : Shape := ⟨2, ![2, 256]⟩
abbrev S2x1x256 : Shape := ⟨3, ![2, 1, 256]⟩
abbrev S2048x256 : Shape := ⟨2, ![2048, 256]⟩
abbrev S2048x20 : Shape := ⟨2, ![2048, 20]⟩

abbrev nBuf : Space → Nat
  | .hbm => 6
  | .vmem => 7
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S20x256, .f32⟩
  | .hbm, ⟨3, _⟩ => ⟨S20x256, .f32⟩
  | .hbm, ⟨4, _⟩ => ⟨S256x20, .f32⟩
  | .hbm, ⟨5, _⟩ => ⟨S32x1024x20, .f32⟩
  | .local _ .vmem, ⟨0, _⟩ => ⟨S2x1024x256, .f32⟩
  | .local _ .vmem, ⟨1, _⟩ => ⟨S2x1024x256, .f32⟩
  | .local _ .vmem, ⟨2, _⟩ => ⟨S2x1024x256, .f32⟩
  | .local _ .vmem, ⟨3, _⟩ => ⟨S2x1024x256, .f32⟩
  | .local _ .vmem, ⟨4, _⟩ => ⟨S256x20, .f32⟩
  | .local _ .vmem, ⟨5, _⟩ => ⟨S2x1024x20, .f32⟩
  | .local _ .vmem, ⟨6, _⟩ => ⟨S2x1024x20, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S20x256_S256x20_1_0 : S20x256.Transposes [1, 0] S256x20
  inb_S2x1024x256_S2x1024x256_0_0_0 : ∀ a, (![0, 0, 0] : Fin 3 → Nat) a + S2x1024x256.size a ≤ S2x1024x256.size a
  h_S2x1024x256 : 0 < S2x1024x256.numel
  reduces_S2x1024x256_S2x1024 : S2x1024x256.Reduces [2] S2x1024
  shapeCasts_S2x1024_S2x1024x1 : S2x1024.ShapeCasts S2x1024x1
  broadcasts_S2x1024x1_S2x1024x256 : S2x1024x1.Broadcasts S2x1024x256
  bitsLt_bf16_f32 : FTy.bits .bf16 < FTy.bits .f32
  reduces_S2x256x256_S2x256 : S2x256x256.Reduces [1] S2x256
  shapeCasts_S2x256_S2x1x256 : S2x256.ShapeCasts S2x1x256
  broadcasts_S2x1x256_S2x256x256 : S2x1x256.Broadcasts S2x256x256
  shapeCasts_S2x1024x256_S2048x256 : S2x1024x256.ShapeCasts S2048x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  shapeCasts_S2048x20_S2x1024x20 : S2048x20.ShapeCasts S2x1024x20
  inb_S2x1024x20_S2x1024x20_0_0_0 : ∀ a, (![0, 0, 0] : Fin 3 → Nat) a + S2x1024x20.size a ≤ S2x1024x20.size a
  h_S2x1024x20 : 0 < S2x1024x20.numel
  dot_S2x1024x256_S2x1024x256_S2x256x256_1_1_2_2_0_0_wf : DotDims.WF S2x1024x256 S2x1024x256 S2x256x256 [1] [1] [2] [2] [0] [0]
  dot_S2x1024x256_S2x256x256_S2x1024x256_2_1_1_2_0_0_wf : DotDims.WF S2x1024x256 S2x256x256 S2x1024x256 [2] [1] [1] [2] [0] [0]
  dot_S2048x256_S256x20_S2048x20_1_0_0_1_n_n_wf : DotDims.WF S2048x256 S256x20 S2048x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S32x1024x256.size a
  hwx0_0 : ∀ i : grid0.Coords, EltTy.bits .f32 = 32 ∨ (Rect.block (s := S32x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x256.size a ≤ S32x1024x256.size a
  hwx0_1 : ∀ i : grid0.Coords, EltTy.bits .f32 = 32 ∨ (Rect.block (s := S32x1024x256) S2x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x20.size a ≤ S256x20.size a
  hwx0_2 : ∀ i : grid0.Coords, EltTy.bits .f32 = 32 ∨ (Rect.block (s := S256x20) S256x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x20.size a ≤ S32x1024x20.size a
  hwx0_3 : ∀ i : grid0.Coords, EltTy.bits .f32 = 32 ∨ (Rect.block (s := S32x1024x20) S2x1024x20.size (cc0_transform_3 i) (hinb0_3 i)).WholeWords (EltTy.packing .f32)

variable [Facts₀]

def dot_S2x1024x256_S2x1024x256_S2x256x256_1_1_2_2_0_0 : DotDims S2x1024x256 S2x1024x256 S2x256x256 where
  lhsContracting := [1]
  rhsContracting := [1]
  lhsNonContracting := [2]
  rhsNonContracting := [2]
  lhsBatch := [0]
  rhsBatch := [0]
  wf := dot_S2x1024x256_S2x1024x256_S2x256x256_1_1_2_2_0_0_wf
def dot_S2x1024x256_S2x256x256_S2x1024x256_2_1_1_2_0_0 : DotDims S2x1024x256 S2x256x256 S2x1024x256 where
  lhsContracting := [2]
  rhsContracting := [1]
  lhsNonContracting := [1]
  rhsNonContracting := [2]
  lhsBatch := [0]
  rhsBatch := [0]
  wf := dot_S2x1024x256_S2x256x256_S2x1024x256_2_1_1_2_0_0_wf
def dot_S2048x256_S256x20_S2048x20_1_0_0_1_n_n : DotDims S2048x256 S256x20 S2048x20 where
  lhsContracting := [1]
  rhsContracting := [0]
  lhsNonContracting := [0]
  rhsNonContracting := [1]
  lhsBatch := []
  rhsBatch := []
  wf := dot_S2048x256_S256x20_S2048x20_1_0_0_1_n_n_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x1024x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S20x256 : Shape := ⟨2, ![20, 256]⟩
abbrev S_ : Shape := ⟨0, ![]⟩
abbrev S32x1024 : Shape := ⟨2, ![32, 1024]⟩
abbrev S32x1024x1 : Shape := ⟨3, ![32, 1024, 1]⟩
abbrev S32x256x256 : Shape := ⟨3, ![32, 256, 256]⟩
abbrev S32x256 : Shape := ⟨2, ![32, 256]⟩
abbrev S32x1x256 : Shape := ⟨3, ![32, 1, 256]⟩
abbrev S32x1024x20 : Shape := ⟨3, ![32, 1024, 20]⟩

abbrev nBuf : Space → Nat
  | .hbm => 52
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S20x256, .f32⟩
  | .hbm, ⟨3, _⟩ => ⟨S32x1024x256, .f32⟩
  | .hbm, ⟨4, _⟩ => ⟨S_, .f32⟩
  | .hbm, ⟨5, _⟩ => ⟨S32x1024, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x1, .f32⟩
  | .hbm, ⟨11, _⟩ => ⟨S32x1024x256, .f32⟩
  | .hbm, ⟨12, _⟩ => ⟨S32x1024x256, .f32⟩
  | .hbm, ⟨13, _⟩ => ⟨S32x1024x256, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x1, .f32⟩
  | .hbm, ⟨21, _⟩ => ⟨S32x1024x256, .f32⟩
  | .hbm, ⟨22, _⟩ => ⟨S32x1024x256, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256, .f32⟩
  | .hbm, ⟨27, _⟩ => ⟨S32x1x256, .f32⟩
  | .hbm, ⟨28, _⟩ => ⟨S_, .f32⟩
  | .hbm, ⟨29, _⟩ => ⟨S32x1x256, .f32⟩
  | .hbm, ⟨30, _⟩ => ⟨S32x1x256, .f32⟩
  | .hbm, ⟨31, _⟩ => ⟨S32x1x256, .f32⟩
  | .hbm, ⟨32, _⟩ => ⟨S32x256x256, .f32⟩
  | .hbm, ⟨33, _⟩ => ⟨S32x256x256, .f32⟩
  | .hbm, ⟨34, _⟩ => ⟨S32x1024x256, .f32⟩
  | .hbm, ⟨35, _⟩ => ⟨S20x256, .f32⟩
  | .hbm, ⟨36, _⟩ => ⟨S32x1024x256, .f32⟩
  | .hbm, ⟨37, _⟩ => ⟨S32x1024x20, .f32⟩
  | .hbm, ⟨38, _⟩ => ⟨S32x1024x256, .f32⟩
  | .hbm, ⟨39, _⟩ => ⟨S32x1024x20, .f32⟩
  | .hbm, ⟨40, _⟩ => ⟨S32x1024x256, .f32⟩
  | .hbm, ⟨41, _⟩ => ⟨S32x1024x20, .f32⟩
  | .hbm, ⟨42, _⟩ => ⟨S_, .f32⟩
  | .hbm, ⟨43, _⟩ => ⟨S32x1024x20, .f32⟩
  | .hbm, ⟨44, _⟩ => ⟨S32x1024x20, .f32⟩
  | .hbm, ⟨45, _⟩ => ⟨S32x1024x20, .f32⟩
  | .hbm, ⟨46, _⟩ => ⟨S_, .f32⟩
  | .hbm, ⟨47, _⟩ => ⟨S32x1024x20, .f32⟩
  | .hbm, ⟨48, _⟩ => ⟨S32x1024x20, .f32⟩
  | .hbm, ⟨49, _⟩ => ⟨S32x1024x20, .f32⟩
  | .hbm, ⟨50, _⟩ => ⟨S32x1024x20, .f32⟩
  | .hbm, ⟨51, _⟩ => ⟨S32x1024x20, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  reducesTo_S32x256x256_S32x256_d1 : S32x256x256.ReducesTo [1] S32x256
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x256x256_0_1_2 : S32x1x256.BroadcastsInDim S32x256x256 (![0, 1, 2] : Fin 3 → Fin S32x256x256.rank)
  bcast_S_S32x1024x20 : S_.BroadcastsInDim S32x1024x20 (![] : Fin 0 → Fin S32x1024x20.rank)
  dot_S32x1024x256_S32x1024x256_S32x256x256_1_1_2_2_0_0_wf : DotDims.WF S32x1024x256 S32x1024x256 S32x256x256 [1] [1] [2] [2] [0] [0]
  dot_S32x1024x256_S32x256x256_S32x1024x256_2_1_1_2_0_0_wf : DotDims.WF S32x1024x256 S32x256x256 S32x1024x256 [2] [1] [1] [2] [0] [0]
  dot_S32x1024x256_S20x256_S32x1024x20_2_1_01_0_n_n_wf : DotDims.WF S32x1024x256 S20x256 S32x1024x20 [2] [1] [0, 1] [0] [] []

variable [Facts₀]

def dot_S32x1024x256_S32x1024x256_S32x256x256_1_1_2_2_0_0 : DotDims S32x1024x256 S32x1024x256 S32x256x256 where
  lhsContracting := [1]
  rhsContracting := [1]
  lhsNonContracting := [2]
  rhsNonContracting := [2]
  lhsBatch := [0]
  rhsBatch := [0]
  wf := dot_S32x1024x256_S32x1024x256_S32x256x256_1_1_2_2_0_0_wf
def dot_S32x1024x256_S32x256x256_S32x1024x256_2_1_1_2_0_0 : DotDims S32x1024x256 S32x256x256 S32x1024x256 where
  lhsContracting := [2]
  rhsContracting := [1]
  lhsNonContracting := [1]
  rhsNonContracting := [2]
  lhsBatch := [0]
  rhsBatch := [0]
  wf := dot_S32x1024x256_S32x256x256_S32x1024x256_2_1_1_2_0_0_wf
def dot_S32x1024x256_S20x256_S32x1024x20_2_1_01_0_n_n : DotDims S32x1024x256 S20x256 S32x1024x20 where
  lhsContracting := [2]
  rhsContracting := [1]
  lhsNonContracting := [0, 1]
  rhsNonContracting := [0]
  lhsBatch := []
  rhsBatch := []
  wf := dot_S32x1024x256_S20x256_S32x1024x20_2_1_01_0_n_n_wf

class Facts : Prop extends Facts₀ where

variable [Facts]
-- ==== Proof.KernelOps.lean ====
/-
  Each non-pointwise operation of the kernel body, read at an index, over the body's literal shapes.

  The body works on a block of two batch elements: `[2, 1024, 256]` sequences, a `[2, 256, 256]` correlation,
  and, for the last projections, the two elements laid one after the other as `[2048, 256]` rows.  Here are:
  a sum along the feature axis and along the correlation's row axis as plain sums; the keep-dims re-casts and
  broadcasts that put such a sum back beside every entry it normalises; the two batched matrix products and
  the row-by-weights product as sums over the contracted coordinate; and the two re-casts between
  `[2, 1024, ·]` and `[2048, ·]`, where row `p · 1024 + q` of the flat form is token `q` of batch element `p`.
-/
import proofs.«145992_j19155554140815_2_alg».proof.Proof.Gen.KernelIdeal
import Idealize.ShloMosaic.Lib.ValueIdx
import Idealize.ShloMosaic.Lib.Pipeline.Value
import Idealize.ShloMosaic.PureOps.Ideal.Laws

noncomputable section

namespace Cert.KernelOps

open Idealize.ShloMosaic Idealize.ShloMosaic.ValueIdx Cert.KernelIdeal Cert.KernelIdeal.Gen

/-! ## Sums along one axis -/

/-- A sum along the feature axis of a `[2, 1024, 256]` vector, at batch element `p` and token `t`. -/
theorem sum_features (v : FVec Ideal S2x1024x256 .f32) (hφ : FKind.Formats .f32)
    (hacc : (0x00000000#32 : BitVec 32) = FKind.add.neutral .f32 hφ) (p : Fin 2) (t : Fin 1024) :
    multiReduction .add [2] S2x1024 v 0x00000000#32 reduces_S2x1024x256_S2x1024 hφ hacc (ix2 p t)
      = ∑ k : Fin 256, v (ix3 p t k) := by
  refine (Ideal.multiReduction_add_single v _ reduces_S2x1024x256_S2x1024 hφ hacc (ix2 p t)).trans ?_
  refine Finset.sum_congr rfl fun k _ => congrArg v (funext fun a => Fin.ext ?_)
  match a with
  | ⟨0, _⟩ => rfl
  | ⟨1, _⟩ => rfl
  | ⟨2, _⟩ => rfl

/-- A sum along the row axis of a `[2, 256, 256]` vector, at batch element `p` and column `e`. -/
theorem sum_rows (v : FVec Ideal S2x256x256 .f32) (hφ : FKind.Formats .f32)
    (hacc : (0x00000000#32 : BitVec 32) = FKind.add.neutral .f32 hφ) (p : Fin 2) (e : Fin 256) :
    multiReduction .add [1] S2x256 v 0x00000000#32 reduces_S2x256x256_S2x256 hφ hacc (ix2 p e)
      = ∑ k : Fin 256, v (ix3 p k e) := by
  refine (Ideal.multiReduction_add_single v _ reduces_S2x256x256_S2x256 hφ hacc (ix2 p e)).trans ?_
  refine Finset.sum_congr rfl fun k _ => congrArg v (funext fun a => Fin.ext ?_)
  match a with
  | ⟨0, _⟩ => rfl
  | ⟨1, _⟩ => rfl
  | ⟨2, _⟩ => rfl

/-! ## Keep-dims re-casts and broadcasts -/

variable {α : Type}

/-- `[2, 1024] → [2, 1024, 1]`: the trailing unit axis added. -/
theorem keep_features (u : S2x1024.Idx → α) (p : Fin 2) (t : Fin 1024) (z : Fin 1) :
    shapeCast S2x1024x1 u shapeCasts_S2x1024_S2x1024x1 (ix3 p t z) = u (ix2 p t) := by
  refine shapeCast_apply u _ (ix3 p t z) (ix2 p t) ?_
  rw [Shape.rowMajor_val_two, Shape.rowMajor_val_three]
  show p.val * 1024 + t.val = (p.val * 1024 + t.val) * 1 + z.val
  have := z.isLt
  omega

/-- `[2, 1024, 1] → [2, 1024, 256]`: one value per token beside each of its features. -/
theorem spread_features (u : S2x1024x1.Idx → α) (p : Fin 2) (t : Fin 1024) (e : Fin 256) :
    broadcastTo S2x1024x256 u broadcasts_S2x1024x1_S2x1024x256 (ix3 p t e) = u (ix3 p t (0 : Fin 1)) := by
  refine broadcastTo_apply u _ (ix3 p t e) (ix3 p t (0 : Fin 1)) fun a => ?_
  match a with
  | ⟨0, _⟩ => show p.val = if (2 : Nat) = 1 then 0 else p.val; rw [if_neg (by decide)]
  | ⟨1, _⟩ => show t.val = if (1024 : Nat) = 1 then 0 else t.val; rw [if_neg (by decide)]
  | ⟨2, _⟩ => show 0 = if (1 : Nat) = 1 then 0 else e.val; rw [if_pos rfl]

/-- `[2, 256] → [2, 1, 256]`: the middle unit axis added. -/
theorem keep_rows (u : S2x256.Idx → α) (p : Fin 2) (z : Fin 1) (e : Fin 256) :
    shapeCast S2x1x256 u shapeCasts_S2x256_S2x1x256 (ix3 p z e) = u (ix2 p e) := by
  refine shapeCast_apply u _ (ix3 p z e) (ix2 p e) ?_
  rw [Shape.rowMajor_val_two, Shape.rowMajor_val_three]
  show p.val * 256 + e.val = (p.val * 1 + z.val) * 256 + e.val
  have := z.isLt
  omega

/-- `[2, 1, 256] → [2, 256, 256]`: one value per column beside each of its rows. -/
theorem spread_rows (u : S2x1x256.Idx → α) (p : Fin 2) (d e : Fin 256) :
    broadcastTo S2x256x256 u broadcasts_S2x1x256_S2x256x256 (ix3 p d e) = u (ix3 p (0 : Fin 1) e) := by
  refine broadcastTo_apply u _ (ix3 p d e) (ix3 p (0 : Fin 1) e) fun a => ?_
  match a with
  | ⟨0, _⟩ => show p.val = if (2 : Nat) = 1 then 0 else p.val; rw [if_neg (by decide)]
  | ⟨1, _⟩ => show 0 = if (1 : Nat) = 1 then 0 else d.val; rw [if_pos rfl]
  | ⟨2, _⟩ => show e.val = if (256 : Nat) = 1 then 0 else e.val; rw [if_neg (by decide)]

/-! ## The two batch elements laid one after the other -/

/-- Row `p · 1024 + q` of the flat form. -/
abbrev row (p : Fin 2) (q : Fin 1024) : Fin 2048 := ⟨p.val * 1024 + q.val, by have := p.isLt; have := q.isLt; omega⟩

/-- `[2, 1024, 256] → [2048, 256]`. -/
theorem flat_apply (v : S2x1024x256.Idx → α) (p : Fin 2) (q : Fin 1024) (e : Fin 256) :
    shapeCast S2048x256 v shapeCasts_S2x1024x256_S2048x256 (ix2 (row p q) e) = v (ix3 p q e) := by
  refine shapeCast_apply v _ (ix2 (row p q) e) (ix3 p q e) ?_
  rw [Shape.rowMajor_val_two, Shape.rowMajor_val_three]
  rfl

/-- `[2048, 20] → [2, 1024, 20]`. -/
theorem unflat_apply (v : S2048x20.Idx → α) (p : Fin 2) (q : Fin 1024) (j : Fin 20) :
    shapeCast S2x1024x20 v shapeCasts_S2048x20_S2x1024x20 (ix3 p q j) = v (ix2 (row p q) j) := by
  refine shapeCast_apply v _ (ix3 p q j) (ix2 (row p q) j) ?_
  rw [Shape.rowMajor_val_two, Shape.rowMajor_val_three]
  rfl

end Cert.KernelOps

end
-- ==== Proof.KernelDots.lean ====
/-
  The kernel body's three matrix products, read at an index as sums over the contracted coordinate.

  * the token-contracted batched product `[2,1024,256] × [2,1024,256] → [2,256,256]`:
      entry `(p, d, e)` is `Σ_t l(p,t,d) · r(p,t,e)`;
  * the feature-contracted batched product `[2,1024,256] × [2,256,256] → [2,1024,256]`:
      entry `(p, t, e)` is `Σ_d l(p,t,d) · r(p,d,e)`;
  * the row-by-weights product `[2048,256] × [256,20] → [2048,20]`:
      entry `(r, j)` is `Σ_d l(r,d) · w(d,j)`.
  Each starts from a zero accumulator, so nothing is added to the sum.
-/
import proofs.«145992_j19155554140815_2_alg».proof.Proof.Gen.KernelIdeal
import Idealize.ShloMosaic.Lib.ValueIdx
import Idealize.ShloMosaic.PureOps.Ideal.Laws

noncomputable section

namespace Cert.KernelDots

open Idealize.ShloMosaic Idealize.ShloMosaic.ValueIdx Cert.KernelIdeal

/-- The token-contracted batched product. -/
abbrev DTok := dot_S2x1024x256_S2x1024x256_S2x256x256_1_1_2_2_0_0
/-- The feature-contracted batched product. -/
abbrev DFeat := dot_S2x1024x256_S2x256x256_S2x1024x256_2_1_1_2_0_0
/-- The row-by-weights product. -/
abbrev DRow := dot_S2048x256_S256x20_S2048x20_1_0_0_1_n_n

/-! ## Operand indices of the token-contracted product -/

theorem tok_lhs_0 (i : S2x256x256.Idx) (q : DTok.contr.Idx) : (DTok.lhsIdx i q 0).val = (i 0).val := by
  unfold DotDims.lhsIdx
  rw [dif_pos (show (0 : Fin S2x1024x256.rank) ∈ DTok.lhsBatch by decide)]
  rfl
theorem tok_lhs_1 (i : S2x256x256.Idx) (q : DTok.contr.Idx) : (DTok.lhsIdx i q 1).val = (q ⟨0, by decide⟩).val :=
  DTok.lhsIdx_val_of_single rfl i q
theorem tok_lhs_2 (i : S2x256x256.Idx) (q : DTok.contr.Idx) : (DTok.lhsIdx i q 2).val = (i 1).val := by
  unfold DotDims.lhsIdx
  rw [dif_neg (show ¬(2 : Fin S2x1024x256.rank) ∈ DTok.lhsBatch by decide),
    dif_pos (show (2 : Fin S2x1024x256.rank) ∈ DTok.lhsNonContracting by decide)]
  rfl
theorem tok_rhs_0 (i : S2x256x256.Idx) (q : DTok.contr.Idx) : (DTok.rhsIdx i q 0).val = (i 0).val := by
  unfold DotDims.rhsIdx
  rw [dif_pos (show (0 : Fin S2x1024x256.rank) ∈ DTok.rhsBatch by decide)]
  rfl
theorem tok_rhs_1 (i : S2x256x256.Idx) (q : DTok.contr.Idx) : (DTok.rhsIdx i q 1).val = (q ⟨0, by decide⟩).val :=
  DTok.rhsIdx_val_of_single rfl i q
theorem tok_rhs_2 (i : S2x256x256.Idx) (q : DTok.contr.Idx) : (DTok.rhsIdx i q 2).val = (i 2).val := by
  unfold DotDims.rhsIdx
  rw [dif_neg (show ¬(2 : Fin S2x1024x256.rank) ∈ DTok.rhsBatch by decide),
    dif_pos (show (2 : Fin S2x1024x256.rank) ∈ DTok.rhsNonContracting by decide)]
  rfl

/-- Entry `(p, d, e)` of the token-contracted product into a zero accumulator. -/
theorem tok_apply (l r : FVec Ideal S2x1024x256 .bf16) (p : Fin 2) (d e : Fin 256) :
    matmul DTok none l r (constant S2x256x256 .f32 0x00000000#32) (ix3 p d e)
      = ∑ t : Fin 1024, l (ix3 p t d) * r (ix3 p t e) := by
  simp only [matmul]
  rw [Ideal.matmul_constant_zero_apply, ← Equiv.sum_comp (contrEquiv1 DTok 1024 rfl rfl).symm]
  refine Finset.sum_congr rfl fun k _ => ?_
  have hk := contrEquiv1_symm_val DTok 1024 rfl rfl k
  have el : DTok.lhsIdx (ix3 p d e) ((contrEquiv1 DTok 1024 rfl rfl).symm k) = ix3 p k d := funext fun a => Fin.ext (by
    match a with
    | ⟨0, _⟩ => exact tok_lhs_0 _ _
    | ⟨1, _⟩ => exact (tok_lhs_1 _ _).trans hk
    | ⟨2, _⟩ => exact tok_lhs_2 _ _)
  have er : DTok.rhsIdx (ix3 p d e) ((contrEquiv1 DTok 1024 rfl rfl).symm k) = ix3 p k e := funext fun a => Fin.ext (by
    match a with
    | ⟨0, _⟩ => exact tok_rhs_0 _ _
    | ⟨1, _⟩ => exact (tok_rhs_1 _ _).trans hk
    | ⟨2, _⟩ => exact tok_rhs_2 _ _)
  rw [el, er]

/-! ## Operand indices of the feature-contracted product -/

theorem feat_lhs_0 (i : S2x1024x256.Idx) (q : DFeat.contr.Idx) : (DFeat.lhsIdx i q 0).val = (i 0).val := by
  unfold DotDims.lhsIdx
  rw [dif_pos (show (0 : Fin S2x1024x256.rank) ∈ DFeat.lhsBatch by decide)]
  rfl
theorem feat_lhs_1 (i : S2x1024x256.Idx) (q : DFeat.contr.Idx) : (DFeat.lhsIdx i q 1).val = (i 1).val := by
  unfold DotDims.lhsIdx
  rw [dif_neg (show ¬(1 : Fin S2x1024x256.rank) ∈ DFeat.lhsBatch by decide),
    dif_pos (show (1 : Fin S2x1024x256.rank) ∈ DFeat.lhsNonContracting by decide)]
  rfl
theorem feat_lhs_2 (i : S2x1024x256.Idx) (q : DFeat.contr.Idx) : (DFeat.lhsIdx i q 2).val = (q ⟨0, by decide⟩).val :=
  DFeat.lhsIdx_val_of_single rfl i q
theorem feat_rhs_0 (i : S2x1024x256.Idx) (q : DFeat.contr.Idx) : (DFeat.rhsIdx i q 0).val = (i 0).val := by
  unfold DotDims.rhsIdx
  rw [dif_pos (show (0 : Fin S2x256x256.rank) ∈ DFeat.rhsBatch by decide)]
  rfl
theorem feat_rhs_1 (i : S2x1024x256.Idx) (q : DFeat.contr.Idx) : (DFeat.rhsIdx i q 1).val = (q ⟨0, by decide⟩).val :=
  DFeat.rhsIdx_val_of_single rfl i q
theorem feat_rhs_2 (i : S2x1024x256.Idx) (q : DFeat.contr.Idx) : (DFeat.rhsIdx i q 2).val = (i 2).val := by
  unfold DotDims.rhsIdx
  rw [dif_neg (show ¬(2 : Fin S2x256x256.rank) ∈ DFeat.rhsBatch by decide),
    dif_pos (show (2 : Fin S2x256x256.rank) ∈ DFeat.rhsNonContracting by decide)]
  rfl

/-- Entry `(p, t, e)` of the feature-contracted product into a zero accumulator. -/
theorem feat_apply (l : FVec Ideal S2x1024x256 .bf16) (r : FVec Ideal S2x256x256 .bf16) (p : Fin 2) (t : Fin 1024) (e : Fin 256) :
    matmul DFeat none l r (constant S2x1024x256 .f32 0x00000000#32) (ix3 p t e)
      = ∑ d : Fin 256, l (ix3 p t d) * r (ix3 p d e) := by
  simp only [matmul]
  rw [Ideal.matmul_constant_zero_apply, ← Equiv.sum_comp (contrEquiv1 DFeat 256 rfl rfl).symm]
  refine Finset.sum_congr rfl fun k _ => ?_
  have hk := contrEquiv1_symm_val DFeat 256 rfl rfl k
  have el : DFeat.lhsIdx (ix3 p t e) ((contrEquiv1 DFeat 256 rfl rfl).symm k) = ix3 p t k := funext fun a => Fin.ext (by
    match a with
    | ⟨0, _⟩ => exact feat_lhs_0 _ _
    | ⟨1, _⟩ => exact feat_lhs_1 _ _
    | ⟨2, _⟩ => exact (feat_lhs_2 _ _).trans hk)
  have er : DFeat.rhsIdx (ix3 p t e) ((contrEquiv1 DFeat 256 rfl rfl).symm k) = ix3 p k e := funext fun a => Fin.ext (by
    match a with
    | ⟨0, _⟩ => exact feat_rhs_0 _ _
    | ⟨1, _⟩ => exact (feat_rhs_1 _ _).trans hk
    | ⟨2, _⟩ => exact feat_rhs_2 _ _)
  rw [el, er]

/-! ## Operand indices of the row-by-weights product -/

theorem row_lhs_0 (i : S2048x20.Idx) (q : DRow.contr.Idx) : (DRow.lhsIdx i q 0).val = (i 0).val := by
  unfold DotDims.lhsIdx
  rw [dif_neg (show ¬(0 : Fin S2048x256.rank) ∈ DRow.lhsBatch by decide),
    dif_pos (show (0 : Fin S2048x256.rank) ∈ DRow.lhsNonContracting by decide)]
  rfl
theorem row_lhs_1 (i : S2048x20.Idx) (q : DRow.contr.Idx) : (DRow.lhsIdx i q 1).val = (q ⟨0, by decide⟩).val :=
  DRow.lhsIdx_val_of_single rfl i q
theorem row_rhs_0 (i : S2048x20.Idx) (q : DRow.contr.Idx) : (DRow.rhsIdx i q 0).val = (q ⟨0, by decide⟩).val :=
  DRow.rhsIdx_val_of_single rfl i q
theorem row_rhs_1 (i : S2048x20.Idx) (q : DRow.contr.Idx) : (DRow.rhsIdx i q 1).val = (i 1).val := by
  unfold DotDims.rhsIdx
  rw [dif_neg (show ¬(1 : Fin S256x20.rank) ∈ DRow.rhsBatch by decide),
    dif_pos (show (1 : Fin S256x20.rank) ∈ DRow.rhsNonContracting by decide)]
  rfl

/-- Entry `(r, j)` of the row-by-weights product into a zero accumulator. -/
theorem row_apply (l : FVec Ideal S2048x256 .bf16) (w : FVec Ideal S256x20 .bf16) (r : Fin 2048) (j : Fin 20) :
    matmul DRow none l w (constant S2048x20 .f32 0x00000000#32) (ix2 r j)
      = ∑ d : Fin 256, l (ix2 r d) * w (ix2 d j) := by
  simp only [matmul]
  rw [Ideal.matmul_constant_zero_apply, ← Equiv.sum_comp (contrEquiv1 DRow 256 rfl rfl).symm]
  refine Finset.sum_congr rfl fun k _ => ?_
  have hk := contrEquiv1_symm_val DRow 256 rfl rfl k
  have el : DRow.lhsIdx (ix2 r j) ((contrEquiv1 DRow 256 rfl rfl).symm k) = ix2 r k := funext fun a => Fin.ext (by
    match a with
    | ⟨0, _⟩ => exact row_lhs_0 _ _
    | ⟨1, _⟩ => exact (row_lhs_1 _ _).trans hk)
  have er : DRow.rhsIdx (ix2 r j) ((contrEquiv1 DRow 256 rfl rfl).symm k) = ix2 k j := funext fun a => Fin.ext (by
    match a with
    | ⟨0, _⟩ => exact (row_rhs_0 _ _).trans hk
    | ⟨1, _⟩ => exact row_rhs_1 _ _)
  rw [el, er]

end Cert.KernelDots

end
-- ==== Proof.Spec.lean ====
/-
  The function both programs compute, for ONE batch element, written over plain coordinates.

  Inputs: two sequences `a, b : Fin 1024 → Fin 256 → EReal` (1024 tokens of 256 features) and a weight table
  `w : Fin 256 → Fin 20 → EReal` (feature `d`, perspective `j`; in the programs it is the transposed square of the
  20 × 256 parameter).  Writing `ε` for the clamp constant and `r(y) = 1/√(max y ε)`:

    unit x t d   = x t d · r(Σ_k (x t k)²)                      each token scaled to unit length
    corr d e     = Σ_t unit b t d · unit a t e                   256 × 256 feature correlation over the tokens
    corrN d e    = corr d e · r(Σ_k (corr k e)²)                 its columns scaled to unit length
    mix t e      = Σ_d unit b t d · corrN d e                    b's unit tokens carried through it
    proj f t j   = Σ_d f t d · w d j                              a weighted feature sum per perspective
    persp t j    = proj (a·mix) t j · r(proj (a·a) t j) · r(proj (mix·mix) t j)

  Every batch element is treated alike and independently, so the batched result at `(β, t, j)` is `persp` of
  the `β`-th slices of the two sequences.
-/
import Idealize.ShloMosaic.PureOps.Ideal
import Idealize.ShloMosaic.Lib.ValueIdx

noncomputable section

namespace Cert.Spec

open Idealize.ShloMosaic Idealize.ShloMosaic.ValueIdx

/-- The clamp constant (about `10⁻¹²`), as the extended real its pattern denotes. -/
abbrev eps : EReal := Ideal.ofBits .f32 0x2B8CBCCC#32

/-- The reciprocal root of a quantity clamped from below by `ε`. -/
def rnorm (y : EReal) : EReal := Ideal.rsqrt (max y eps)

/-- The sum of squares of token `t`. -/
def ssq (x : Fin 1024 → Fin 256 → EReal) (t : Fin 1024) : EReal := ∑ k : Fin 256, x t k * x t k

/-- Token `t` scaled to unit length. -/
def unit (x : Fin 1024 → Fin 256 → EReal) (t : Fin 1024) (d : Fin 256) : EReal := x t d * rnorm (ssq x t)

/-- The feature correlation of the two unit sequences, summed over the tokens. -/
def corr (a b : Fin 1024 → Fin 256 → EReal) (d e : Fin 256) : EReal := ∑ t : Fin 1024, unit b t d * unit a t e

/-- Its column `e` scaled to unit length. -/
def corrN (a b : Fin 1024 → Fin 256 → EReal) (d e : Fin 256) : EReal :=
  corr a b d e * rnorm (∑ k : Fin 256, corr a b k e * corr a b k e)

/-- The unit tokens of `b` carried through the normalised correlation. -/
def mix (a b : Fin 1024 → Fin 256 → EReal) (t : Fin 1024) (e : Fin 256) : EReal := ∑ d : Fin 256, unit b t d * corrN a b d e

/-- A weighted feature sum per perspective. -/
def proj (f : Fin 1024 → Fin 256 → EReal) (w : Fin 256 → Fin 20 → EReal) (t : Fin 1024) (j : Fin 20) : EReal :=
  ∑ d : Fin 256, f t d * w d j

/-- The per-token, per-perspective cosine. -/
def persp (a b : Fin 1024 → Fin 256 → EReal) (w : Fin 256 → Fin 20 → EReal) (t : Fin 1024) (j : Fin 20) : EReal :=
  proj (fun t d => a t d * mix a b t d) w t j
    * rnorm (proj (fun t d => a t d * a t d) w t j)
    * rnorm (proj (fun t d => mix a b t d * mix a b t d) w t j)

/-- THE BATCHED RESULT as one function of the three argument arrays: at `(β, t, j)` it is `persp` of the
    `β`-th slices of the two sequences, the weight table being the square of the `[20, 256]` parameter read
    feature first. -/
def result (A B : (⟨3, ![32, 1024, 256]⟩ : Shape).Idx → EReal) (W : (⟨2, ![20, 256]⟩ : Shape).Idx → EReal) :
    (⟨3, ![32, 1024, 20]⟩ : Shape).Idx → EReal := fun i =>
  persp (fun t d => A (ix3 (i 0) t d)) (fun t d => B (ix3 (i 0) t d)) (fun d j => W (ix2 j d) * W (ix2 j d)) (i 1) (i 2)

/-- At coordinates. -/
theorem result_apply (A B : (⟨3, ![32, 1024, 256]⟩ : Shape).Idx → EReal) (W : (⟨2, ![20, 256]⟩ : Shape).Idx → EReal)
    (β : Fin 32) (t : Fin 1024) (j : Fin 20) :
    result A B W (ix3 β t j)
      = persp (fun t d => A (ix3 β t d)) (fun t d => B (ix3 β t d)) (fun d j => W (ix2 j d) * W (ix2 j d)) t j := rfl

end Cert.Spec

end
-- ==== Proof.KernelPayload.lean ====
/-
  The kernel body's stored value, read at an index of its `[2, 1024, 20]` block, is the spec's `persp` of the
  block's batch element.

  The body loads a block `x0, x1 : [2, 1024, 256]` of the two sequences and the whole weight table
  `x2 : [256, 20]`.  For batch element `p` of the block put `a t d = x0 (p, t, d)`, `b t d = x1 (p, t, d)`,
  `w d j = x2 (d, j)`.  Following the body operation by operation: each token is scaled by the reciprocal root
  of its clamped sum of squares (`unit`); the token-contracted batched product of the two is `corr`; its
  columns are scaled the same way (`corrN`); the feature-contracted batched product is `mix`; with the two
  batch elements laid one after the other, row `p·1024 + q` of each `[2048, 256]` operand is token `q` of
  element `p`, so the three row-by-weights products are the three `proj`s; and the stored value is their
  combination `persp`, cast back to `[2, 1024, 20]`.  A change of float format is the identity here.
-/
import proofs.«145992_j19155554140815_2_alg».proof.Proof.Gen.KernelIdeal.Skeleton
import proofs.«145992_j19155554140815_2_alg».proof.Proof.KernelOps
import proofs.«145992_j19155554140815_2_alg».proof.Proof.KernelDots
import proofs.«145992_j19155554140815_2_alg».proof.Proof.Spec

noncomputable section

namespace Cert.KernelPayload

open Idealize.ShloMosaic Idealize.ShloMosaic.ValueIdx Cert.KernelIdeal Cert.KernelIdeal.Gen Cert.KernelOps Cert.KernelDots

/-- Batch element `p` of a `[2, 1024, 256]` block. -/
def part (x : FVec Ideal S2x1024x256 .f32) (p : Fin 2) : Fin 1024 → Fin 256 → EReal := fun t d => x (ix3 p t d)

/-- The weight block as a table. -/
def table (x : FVec Ideal S256x20 .f32) : Fin 256 → Fin 20 → EReal := fun d j => x (ix2 d j)

/-- The reciprocal root of a vector clamped from below by `ε`, at an index. -/
theorem rsqrt_clamp_apply {s : Shape} (v : FVec Ideal s .f32) (i : s.Idx) :
    rsqrt (maximumf v (broadcast s (Scalar.ofBits .f32 0x2B8CBCCC#32))) i = Spec.rnorm (v i) := rfl

/-- The change of format to bf16 is the identity on extended reals. -/
theorem trunc_apply {s : Shape} (v : FVec Ideal s .f32) (i : s.Idx) : truncf .bf16 v bitsLt_bf16_f32 i = v i := rfl

/-- Each token scaled to unit length: the body's first normalisation, at `(p, t, e)`. -/
theorem unit_apply (x : FVec Ideal S2x1024x256 .f32) (hφ : FKind.Formats .f32)
    (hacc : (0x00000000#32 : BitVec 32) = FKind.add.neutral .f32 hφ) (p : Fin 2) (t : Fin 1024) (e : Fin 256) :
    mulf x (broadcastTo S2x1024x256 (rsqrt (maximumf (shapeCast S2x1024x1
        (multiReduction .add [2] S2x1024 (mulf x x) 0x00000000#32 reduces_S2x1024x256_S2x1024 hφ hacc) shapeCasts_S2x1024_S2x1024x1)
        (broadcast S2x1024x1 (Scalar.ofBits .f32 0x2B8CBCCC#32)))) broadcasts_S2x1024x1_S2x1024x256) (ix3 p t e)
      = Spec.unit (part x p) t e := by
  unfold Spec.unit
  refine (mulf_apply _ _ _).trans (congrArg (x (ix3 p t e) * ·) ?_)
  refine (spread_features _ p t e).trans ?_
  refine (rsqrt_clamp_apply _ _).trans (congrArg Spec.rnorm ?_)
  refine (keep_features _ p t 0).trans ?_
  exact sum_features _ hφ hacc p t

/-- Each column of a `[2, 256, 256]` vector scaled to unit length: the body's second normalisation, at `(p, d, e)`. -/
theorem colunit_apply (v : FVec Ideal S2x256x256 .f32) (hφ : FKind.Formats .f32)
    (hacc : (0x00000000#32 : BitVec 32) = FKind.add.neutral .f32 hφ) (p : Fin 2) (d e : Fin 256) :
    mulf v (broadcastTo S2x256x256 (rsqrt (maximumf (shapeCast S2x1x256
        (multiReduction .add [1] S2x256 (mulf v v) 0x00000000#32 reduces_S2x256x256_S2x256 hφ hacc) shapeCasts_S2x256_S2x1x256)
        (broadcast S2x1x256 (Scalar.ofBits .f32 0x2B8CBCCC#32)))) broadcasts_S2x1x256_S2x256x256) (ix3 p d e)
      = v (ix3 p d e) * Spec.rnorm (∑ k : Fin 256, v (ix3 p k e) * v (ix3 p k e)) := by
  refine (mulf_apply _ _ _).trans (congrArg (v (ix3 p d e) * ·) ?_)
  refine (spread_rows _ p d e).trans ?_
  refine (rsqrt_clamp_apply _ _).trans (congrArg Spec.rnorm ?_)
  refine (keep_rows _ p 0 e).trans ?_
  exact sum_rows _ hφ hacc p e

/-- The mix, flat: row `p·1024 + q`, feature `e`. -/
theorem mix_apply (x0 x1 : FVec Ideal S2x1024x256 .f32) (p : Fin 2) (q : Fin 1024) (e : Fin 256) :
    k0_pay3 (F := Ideal) x0 x1 (ix2 (row p q) e) = Spec.mix (part x0 p) (part x1 p) q e := by
  unfold k0_pay3 k0_pay2
  refine (flat_apply _ p q e).trans ?_
  refine (feat_apply _ _ p q e).trans ?_
  unfold Spec.mix
  refine Finset.sum_congr rfl fun d _ => congrArg₂ (· * ·) ?_ ?_
  · exact unit_apply x1 _ _ p q d
  · unfold Spec.corrN
    refine (trunc_apply _ _).trans ?_
    refine (colunit_apply _ _ _ p d e).trans ?_
    have hc : ∀ d' e' : Fin 256, matmul DTok none
          (truncf .bf16 (mulf x1 (broadcastTo S2x1024x256 (rsqrt (maximumf (shapeCast S2x1024x1
            (multiReduction .add [2] S2x1024 (mulf x1 x1) 0x00000000#32 reduces_S2x1024x256_S2x1024 (.inl rfl) rfl) shapeCasts_S2x1024_S2x1024x1)
            (broadcast S2x1024x1 (Scalar.ofBits .f32 0x2B8CBCCC#32)))) broadcasts_S2x1024x1_S2x1024x256)) bitsLt_bf16_f32)
          (truncf .bf16 (mulf x0 (broadcastTo S2x1024x256 (rsqrt (maximumf (shapeCast S2x1024x1
            (multiReduction .add [2] S2x1024 (mulf x0 x0) 0x00000000#32 reduces_S2x1024x256_S2x1024 (.inl rfl) rfl) shapeCasts_S2x1024_S2x1024x1)
            (broadcast S2x1024x1 (Scalar.ofBits .f32 0x2B8CBCCC#32)))) broadcasts_S2x1024x1_S2x1024x256)) bitsLt_bf16_f32)
          (constant S2x256x256 .f32 0x00000000#32) (ix3 p d' e') = Spec.corr (part x0 p) (part x1 p) d' e' := by
      intro d' e'
      refine (tok_apply _ _ p d' e').trans ?_
      unfold Spec.corr
      exact Finset.sum_congr rfl fun t _ => congrArg₂ (· * ·) (unit_apply x1 _ _ p t d') (unit_apply x0 _ _ p t e')
    refine congrArg₂ (· * ·) (hc d e) (congrArg Spec.rnorm ?_)
    exact Finset.sum_congr rfl fun k _ => congrArg₂ (· * ·) (hc k e) (hc k e)

/-- The weight block through its identity re-cast and format change. -/
theorem weights_apply (x2 : FVec Ideal S256x20 .f32) (d : Fin 256) (j : Fin 20) :
    k0_pay5 (F := Ideal) x2 (ix2 d j) = table x2 d j := by
  unfold k0_pay5
  refine (trunc_apply _ _).trans ?_
  exact congrFun (shapeCast_self x2 _) _

/-- The squares of the first sequence, flat. -/
theorem squares_apply (x0 : FVec Ideal S2x1024x256 .f32) (p : Fin 2) (q : Fin 1024) (d : Fin 256) :
    k0_pay7 (F := Ideal) x0 (ix2 (row p q) d) = part x0 p q d * part x0 p q d := by
  unfold k0_pay7 k0_pay2
  refine (trunc_apply _ _).trans ?_
  exact flat_apply _ p q d

/-- The squares of the mix, flat. -/
theorem mixsq_apply (x0 x1 : FVec Ideal S2x1024x256 .f32) (p : Fin 2) (q : Fin 1024) (d : Fin 256) :
    k0_pay4 (F := Ideal) x0 x1 (ix2 (row p q) d) = Spec.mix (part x0 p) (part x1 p) q d * Spec.mix (part x0 p) (part x1 p) q d := by
  unfold k0_pay4
  exact (mulf_apply _ _ _).trans (congrArg₂ (· * ·) (mix_apply x0 x1 p q d) (mix_apply x0 x1 p q d))

/-- The numerator: the weighted sum of the first sequence times the mix, at row `p·1024 + q`. -/
theorem num_apply (x0 x1 : FVec Ideal S2x1024x256 .f32) (x2 : FVec Ideal S256x20 .f32) (p : Fin 2) (q : Fin 1024) (j : Fin 20) :
    k0_pay6 (F := Ideal) x0 x1 x2 (ix2 (row p q) j)
      = Spec.proj (fun t d => part x0 p t d * Spec.mix (part x0 p) (part x1 p) t d) (table x2) q j := by
  unfold k0_pay6
  refine (row_apply _ _ (row p q) j).trans ?_
  unfold Spec.proj
  refine Finset.sum_congr rfl fun d _ => congrArg₂ (· * ·) ?_ (weights_apply x2 d j)
  refine (trunc_apply _ _).trans ?_
  exact (mulf_apply _ _ _).trans (congrArg₂ (· * ·) (flat_apply x0 p q d) (mix_apply x0 x1 p q d))

/-- THE STORED VALUE at `(p, q, j)` of the block. -/
theorem payload_apply (x0 x1 : FVec Ideal S2x1024x256 .f32) (x2 : FVec Ideal S256x20 .f32) (p : Fin 2) (q : Fin 1024) (j : Fin 20) :
    k0_pay1 (F := Ideal) (k0_pay4 x0 x1) (k0_pay5 x2) (k0_pay6 x0 x1 x2) (k0_pay7 x0) (ix3 p q j)
      = Spec.persp (part x0 p) (part x1 p) (table x2) q j := by
  unfold k0_pay1
  refine (unflat_apply _ p q j).trans ?_
  unfold Spec.persp
  refine (mulf_apply _ _ _).trans (congrArg₂ (· * ·) ((mulf_apply _ _ _).trans (congrArg₂ (· * ·) (num_apply x0 x1 x2 p q j) ?_)) ?_)
  · refine (rsqrt_clamp_apply _ _).trans (congrArg Spec.rnorm ?_)
    refine (row_apply _ _ (row p q) j).trans ?_
    unfold Spec.proj
    exact Finset.sum_congr rfl fun d _ => congrArg₂ (· * ·) (squares_apply x0 p q d) (weights_apply x2 d j)
  · refine (rsqrt_clamp_apply _ _).trans (congrArg Spec.rnorm ?_)
    refine (row_apply _ _ (row p q) j).trans ?_
    unfold Spec.proj
    refine Finset.sum_congr rfl fun d _ => congrArg₂ (· * ·) ?_ (weights_apply x2 d j)
    exact (trunc_apply _ _).trans (mixsq_apply x0 x1 p q d)

end Cert.KernelPayload

end
-- ==== Proof.Blocks.lean ====
/-
  From the blocks to the whole result array, and the kernel program's run.

  The grid has sixteen points; point `t` stages batch elements `2t` and `2t + 1` of the two sequences (blocks
  `[2, 1024, 256]` at block index `(t, 0, 0)`), the whole `[256, 20]` weight table (block index `(0, 0)` at
  every point), and writes back block `(t, 0, 0)` of the `[32, 1024, 20]` result.  An index inside a block is
  block index × block size + the coordinate inside the block, so element `p` of point `t`'s block is batch
  element `2t + p` of the array and the other two coordinates are unchanged.  The weight table the region
  finds is what the program's two host operations made of the `[20, 256]` parameter: its square, transposed —
  entry `(d, j)` is the parameter's `(j, d)` squared.  With the body's stored value known at every index of
  its block, what point `t` writes back is block `t` of the spec's batched result; the sixteen blocks cover
  the result array (row `β` lies in block `β / 2`), so the array ends holding that function whole.
-/
import proofs.«145992_j19155554140815_2_alg».proof.Proof.Gen.KernelIdeal.Value
import proofs.«145992_j19155554140815_2_alg».proof.Proof.KernelPayload
import Idealize.ShloMosaic.Lib.StableHlo.Run
import Idealize.ShloMosaic.Lib.ValueLayout

set_option maxRecDepth 16384

noncomputable section

namespace Cert.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The weight table the region finds -/

/-- The `[20, 256]` parameter as launched. -/
def param (c : Dev nD) : S20x256.Idx → EReal := m ((c : Thread nD τ).loc main_arg2)

/-- The region's third operand is the square of the parameter, transposed. -/
theorem table_entry (c : Dev nD) :
    (V m c main_v1 : S256x20.Idx → EReal)
      = transpose S256x20 [1, 0] (mulf (F := Ideal) (φ := .f32) (s := S20x256) (m ((c : Thread nD τ).loc main_arg2)) (m ((c : Thread nD τ).loc main_arg2)))
          transposes_S20x256_S256x20_1_0 := by
  dsimp only [V, hostOps0]; after_results

/-- Its entry `(d, j)` is the parameter's `(j, d)` squared. -/
theorem table_apply (c : Dev nD) (d : Fin 256) (j : Fin 20) :
    (V m c main_v1 : S256x20.Idx → EReal) (ix2 d j)
      = param m c (ix2 j d) * param m c (ix2 j d) := by
  rw [table_entry]
  exact transpose_ix2_apply _ _ d j

/-! ## The printed index maps over the grid -/

/-- The two sequence windows move with the result window along the batch axis; every other block index is `0`;
    the result's block index on the batch axis stays below sixteen. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 15 :=
  (by decide +kernel : ∀ t : Fin grid0.N, _)

/-- Every block of the result along the batch axis is some point's. -/
theorem index_onto : ∀ q0 : Fin 16, ∃ t : Fin cfg0.N, win0_3.index t = ![q0.val, 0, 0] :=
  (by decide +kernel : ∀ q0 : Fin 16, ∃ t : Fin grid0.N, win0_3.index t = ![q0.val, 0, 0])

/-! ## What a point writes back -/

/-- WHAT POINT `t` WRITES BACK is block `t` of the spec's batched result of the arrays as the region finds them. -/
theorem flushed_eq (c : Dev nD) (t : Fin cfg0.N) :
    (dats m 0 c).flushed 3 t
      = ((cfg0.win 3).blk t).view.read (Elt Ideal)
          (Spec.result (V m c main_arg0) (V m c main_arg1) (m ((c : Thread nD τ).loc main_arg2))) := by
  rw [Cert.KernelIdeal.Value.flushed3]
  unfold out0_3
  rw [View.canon_unit_zero zero3]
  simp only [View.ld_unit_zero (S := S2x1024x256) zero3, View.ld_unit_zero (S := S256x20) zero2]
  obtain ⟨e00, e01, e02, e10, e11, e12, e20, e21, e31, e32, e3b⟩ := index_facts t
  funext y
  obtain ⟨p, q, j, rfl⟩ : ∃ (p : Fin 2) (q : Fin 1024) (j : Fin 20), y = ix3 p q j := ⟨y 0, y 1, y 2, eq_ix3 y⟩
  show k0_pay1 (F := Ideal) (k0_pay4 (iblk m c 0 t) (iblk m c 1 t)) (k0_pay5 (iblk m c 2 t))
        (k0_pay6 (iblk m c 0 t) (iblk m c 1 t) (iblk m c 2 t)) (k0_pay7 (iblk m c 0 t)) (ix3 p q j)
      = Spec.result (V m c main_arg0) (V m c main_arg1) (m ((c : Thread nD τ).loc main_arg2)) (((cfg0.win 3).blk t).view.emb (ix3 p q j))
  refine (KernelPayload.payload_apply (iblk m c 0 t) (iblk m c 1 t) (iblk m c 2 t) p q j).trans ?_
  have hβ : win0_3.index t (0 : Fin 3) * 2 + p.val < 32 := by have := p.isLt; omega
  have he : ((cfg0.win 3).blk t).view.emb (ix3 p q j) = ix3 (⟨win0_3.index t (0 : Fin 3) * 2 + p.val, hβ⟩ : Fin 32) q j :=
    funext fun a => Fin.ext (by
      match a with
      | ⟨0, _⟩ => show win0_3.index t (0 : Fin 3) * 2 + 1 * p.val = win0_3.index t (0 : Fin 3) * 2 + p.val; omega
      | ⟨1, _⟩ => show win0_3.index t (1 : Fin 3) * 1024 + 1 * q.val = q.val; omega
      | ⟨2, _⟩ => show win0_3.index t (2 : Fin 3) * 20 + 1 * j.val = j.val; omega)
  rw [he, Spec.result_apply]
  have h0 : KernelPayload.part (iblk m c 0 t) p
      = fun t' d => V m c main_arg0 (ix3 (⟨win0_3.index t (0 : Fin 3) * 2 + p.val, hβ⟩ : Fin 32) t' d) := by
    funext t' d
    show V m c main_arg0 (((cfg0.win 0).blk t).view.emb (ix3 p t' d)) = _
    refine congrArg _ (funext fun a => Fin.ext ?_)
    match a with
    | ⟨0, _⟩ => show win0_0.index t (0 : Fin 3) * 2 + 1 * p.val = win0_3.index t (0 : Fin 3) * 2 + p.val; omega
    | ⟨1, _⟩ => show win0_0.index t (1 : Fin 3) * 1024 + 1 * t'.val = t'.val; omega
    | ⟨2, _⟩ => show win0_0.index t (2 : Fin 3) * 256 + 1 * d.val = d.val; omega
  have h1 : KernelPayload.part (iblk m c 1 t) p
      = fun t' d => V m c main_arg1 (ix3 (⟨win0_3.index t (0 : Fin 3) * 2 + p.val, hβ⟩ : Fin 32) t' d) := by
    funext t' d
    show V m c main_arg1 (((cfg0.win 1).blk t).view.emb (ix3 p t' d)) = _
    refine congrArg _ (funext fun a => Fin.ext ?_)
    match a with
    | ⟨0, _⟩ => show win0_1.index t (0 : Fin 3) * 2 + 1 * p.val = win0_3.index t (0 : Fin 3) * 2 + p.val; omega
    | ⟨1, _⟩ => show win0_1.index t (1 : Fin 3) * 1024 + 1 * t'.val = t'.val; omega
    | ⟨2, _⟩ => show win0_1.index t (2 : Fin 3) * 256 + 1 * d.val = d.val; omega
  have h2 : KernelPayload.table (iblk m c 2 t)
      = fun d j' => param m c (ix2 j' d) * param m c (ix2 j' d) := by
    funext d j'
    refine Eq.trans ?_ (table_apply m c d j')
    show V m c main_v1 (((cfg0.win 2).blk t).view.emb (ix2 d j')) = _
    refine congrArg _ (funext fun a => Fin.ext ?_)
    match a with
    | ⟨0, _⟩ => show win0_2.index t (0 : Fin 2) * 256 + 1 * d.val = d.val; omega
    | ⟨1, _⟩ => show win0_2.index t (1 : Fin 2) * 20 + 1 * j'.val = j'.val; omega
  rw [h0, h1, h2]
  rfl

/-! ## The cover -/

/-- An index of the result array is in point `t`'s block iff each coordinate is in the block's range on its axis. -/
theorem mem_blk (t : Fin cfg0.N) (i : S32x1024x20.Idx) :
    i ∈ ((cfg0.win 3).blk t).view.set ↔ ∀ a : Fin 3, win0_3.index t a * S2x1024x20.size a ≤ (i a).val ∧ (i a).val < win0_3.index t a * S2x1024x20.size a + S2x1024x20.size a := by
  show i ∈ ((View.whole main_v2).slice (win0_3.rect t)).set ↔ _
  rw [View.set_slice_whole, Rect.mem_set_unit]
  exact Iff.rfl

/-- Every index of the result array is in the block of the point that handles its pair of batch elements. -/
theorem cover (i : S32x1024x20.Idx) : ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 20 := (i 2).isLt
  obtain ⟨t, ht⟩ := index_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 20 ≤ (i 2).val ∧ (i 2).val < win0_3.index t (2 : Fin 3) * 20 + 20; omega

/-! ## The array after the run, and the run -/

/-- THE RESULT ARRAY after the run is the spec's batched result of the three arguments as launched. -/
theorem final (c : Dev nD) :
    (dats m 0 c).arrAt 3 cfg0.N
      = Spec.result (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) cover

/-- The kernel program's run: every weakly fair execution terminates with the result array at the spec's batched
    result of the arguments and the arguments unchanged. -/
theorem run : θ_run defs (onTc (τ := τ) (main (F := Ideal))) ⟨m, fun _ => 0, ρ⟩ fun r => ∀ c : Dev nD,
      r.2.mem ((c : Thread nD τ).loc main_v2)
        = Spec.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Blocks

end
-- ==== Proof.NormLaws.lean ====
/-
  The scalar laws that join the two programs, on the extended reals.

  Both programs normalise by the root of a quantity clamped from below by a small positive constant
  `ε`.  One writes the quotient `x / √y`, the other the product `x · (1/√y)` with the reciprocal root
  taken as one operation.  For `y > 0` — a positive real, or `+∞` — the two agree for EVERY extended
  real `x`: at a positive real `y` the root `√y` is a nonzero real and dividing by it is multiplying
  by its inverse; at `y = +∞` the root is `+∞`, whose inverse is `0`, and the reciprocal root is `0`
  as well.  The same holds for a quotient by a product of two such roots against the product of the
  two reciprocal roots.  Since `max s ε ≥ ε > 0` whatever `s` is, no finiteness of `s` or `x` is used.
-/
import Idealize.ShloMosaic.PureOps.Ideal

noncomputable section

namespace Cert.NormLaws

open Idealize.ShloMosaic

/-- The clamp constant's pattern denotes a positive real: `9223372 · 2⁻⁶³` (about `10⁻¹²`). -/
theorem eps_pos : (0 : EReal) < Ideal.ofBits .f32 0x2B8CBCCC#32 := by
  have h : Ideal.ofBits .f32 0x2B8CBCCC#32 = (((9223372 : ℝ) * (2 : ℝ) ^ (-63 : Int) : ℝ) : EReal) := by
    simp [Ideal.ofBits, Ideal.ieee, -EReal.coe_mul]
  rw [h]
  exact EReal.coe_pos.mpr (by positivity)

/-- Whatever is clamped, the clamped value is positive. -/
theorem clamp_pos (s : EReal) : (0 : EReal) < max s (Ideal.ofBits .f32 0x2B8CBCCC#32) :=
  lt_max_of_lt_right eps_pos

/-- `x / √y = x · (1/√y)` for every extended real `x` and every `y > 0`, `+∞` included. -/
theorem div_sqrt (x y : EReal) (hy : 0 < y) : Ideal.div x (Ideal.sqrt y) = x * Ideal.rsqrt y := by
  induction y using EReal.rec with
  | bot => exact absurd hy (not_lt.mpr bot_le)
  | top =>
    rw [Ideal.sqrt_top, Ideal.rsqrt_top, Ideal.div, if_neg (by simp), EReal.inv_top]
  | coe r =>
    have hr : 0 < r := EReal.coe_pos.mp hy
    have hs : 0 < Real.sqrt r := Real.sqrt_pos.mpr hr
    rw [Ideal.sqrt_coe, if_neg (not_lt.mpr hr.le), Ideal.rsqrt_coe, if_neg (not_lt.mpr hr.le), if_neg hr.ne',
      Ideal.div_coe hs.ne', one_div]

/-- `n / (√p · √q) = n · (1/√p) · (1/√q)` for every extended real `n` and all `p, q > 0`, `+∞` included:
    with both real the inverse of the product of the roots is the product of their inverses; as soon as one
    of them is `+∞` the product of the roots is `+∞` and both sides are `0`. -/
theorem div_sqrt_mul_sqrt (n p q : EReal) (hp : 0 < p) (hq : 0 < q) :
    Ideal.div n (Ideal.sqrt p * Ideal.sqrt q) = n * Ideal.rsqrt p * Ideal.rsqrt q := by
  induction p using EReal.rec with
  | bot => exact absurd hp (not_lt.mpr bot_le)
  | top =>
    have hsq : 0 < Ideal.sqrt q := by
      induction q using EReal.rec with
      | bot => exact absurd hq (not_lt.mpr bot_le)
      | top => rw [Ideal.sqrt_top]; exact EReal.zero_lt_top
      | coe r =>
        have hr : 0 < r := EReal.coe_pos.mp hq
        rw [Ideal.sqrt_coe, if_neg (not_lt.mpr hr.le)]
        exact EReal.coe_pos.mpr (Real.sqrt_pos.mpr hr)
    rw [Ideal.sqrt_top, Ideal.rsqrt_top, EReal.top_mul_of_pos hsq, Ideal.div, if_neg (by simp), EReal.inv_top,
      mul_zero, zero_mul]
  | coe a =>
    have ha : 0 < a := EReal.coe_pos.mp hp
    have hsa : 0 < Real.sqrt a := Real.sqrt_pos.mpr ha
    induction q using EReal.rec with
    | bot => exact absurd hq (not_lt.mpr bot_le)
    | top =>
      rw [Ideal.sqrt_top, Ideal.rsqrt_top, Ideal.sqrt_coe, if_neg (not_lt.mpr ha.le),
        EReal.mul_top_of_pos (EReal.coe_pos.mpr hsa), Ideal.div, if_neg (by simp), EReal.inv_top, mul_zero, mul_zero]
    | coe b =>
      have hb : 0 < b := EReal.coe_pos.mp hq
      have hsb : 0 < Real.sqrt b := Real.sqrt_pos.mpr hb
      rw [Ideal.sqrt_coe, if_neg (not_lt.mpr ha.le), Ideal.sqrt_coe, if_neg (not_lt.mpr hb.le),
        Ideal.rsqrt_coe, if_neg (not_lt.mpr ha.le), if_neg ha.ne',
        Ideal.rsqrt_coe, if_neg (not_lt.mpr hb.le), if_neg hb.ne',
        ← EReal.coe_mul, Ideal.div_coe (mul_pos hsa hsb).ne', mul_assoc, ← EReal.coe_mul, one_div, mul_inv]

end Cert.NormLaws

end
-- ==== Proof.RefStages.lean ====
/-
  The reference program's result, read at an index, is the spec's `persp` of the batch element's slices.

  The reference normalises by QUOTIENTS: `x / √(max s ε)` for the unit tokens and the unit columns, and
  `num / (√(max sa ε) · √(max sh ε))` at the end.  The spec writes the same with reciprocal roots.  Because
  `max · ε` is positive whatever is clamped, the scalar laws turn each quotient into the product with the
  reciprocal root, for every extended real numerator; everything else — the sums over features, tokens and
  correlation rows, and the three weighted feature sums — is read off one stage at a time.
-/
import proofs.«145992_j19155554140815_2_alg».proof.Proof.Gen.ReferenceIdeal.Read
import proofs.«145992_j19155554140815_2_alg».proof.Proof.Spec
import proofs.«145992_j19155554140815_2_alg».proof.Proof.NormLaws

noncomputable section

namespace Cert.RefStages

open Idealize.ShloMosaic Idealize.ShloMosaic.ValueIdx Cert.ReferenceIdeal Cert.ReferenceIdeal.Read Cert.Spec

/-- A `[32, 1024, 256]` array of extended reals. -/
abbrev Seqs : Type := (⟨S32x1024x256, .f32⟩ : BufTy).Contents (Elt Ideal)
/-- A `[20, 256]` array of extended reals. -/
abbrev Wts : Type := (⟨S20x256, .f32⟩ : BufTy).Contents (Elt Ideal)

/-- Batch element `β` of a sequence array. -/
def slice (A : Seqs) (β : Fin 32) : Fin 1024 → Fin 256 → EReal := fun t d => A (ix3 β t d)

/-- The weight table: the square of the parameter, feature first. -/
def wsq (W : Wts) : Fin 256 → Fin 20 → EReal := fun d j => W (ix2 j d) * W (ix2 j d)

/-! ## The stages' index maps at coordinates -/

theorem i6 (β : Fin 32) (t : Fin 1024) (d : Fin 256) : idx_main_v6 (ix3 β t d) = ix3 β t (0 : Fin 1) :=
  funext fun a => Fin.ext (by match a with | ⟨0, _⟩ => rfl | ⟨1, _⟩ => rfl | ⟨2, _⟩ => rfl)
theorem i2 (β : Fin 32) (t : Fin 1024) (z : Fin 1) : idx_main_v2 (ix3 β t z) = ix2 β t :=
  funext fun a => Fin.ext (by match a with | ⟨0, _⟩ => rfl | ⟨1, _⟩ => rfl)
theorem i1 (β : Fin 32) (t : Fin 1024) (k : Fin 256) : idx_main_v1 (ix2 β t) k = ix3 β t k :=
  funext fun a => Fin.ext (by match a with | ⟨0, _⟩ => rfl | ⟨1, _⟩ => rfl | ⟨2, _⟩ => rfl)
theorem i14 (β : Fin 32) (t : Fin 1024) (d : Fin 256) : idx_main_v14 (ix3 β t d) = ix3 β t (0 : Fin 1) :=
  funext fun a => Fin.ext (by match a with | ⟨0, _⟩ => rfl | ⟨1, _⟩ => rfl | ⟨2, _⟩ => rfl)
theorem i10 (β : Fin 32) (t : Fin 1024) (z : Fin 1) : idx_main_v10 (ix3 β t z) = ix2 β t :=
  funext fun a => Fin.ext (by match a with | ⟨0, _⟩ => rfl | ⟨1, _⟩ => rfl)
theorem i9 (β : Fin 32) (t : Fin 1024) (k : Fin 256) : idx_main_v9 (ix2 β t) k = ix3 β t k :=
  funext fun a => Fin.ext (by match a with | ⟨0, _⟩ => rfl | ⟨1, _⟩ => rfl | ⟨2, _⟩ => rfl)
theorem l16 (β : Fin 32) (d e : Fin 256) (k : Fin 1024) : lidx_main_v16 (ix3 β d e) k = ix3 β k d :=
  funext fun a => Fin.ext (by match a with | ⟨0, _⟩ => rfl | ⟨1, _⟩ => rfl | ⟨2, _⟩ => rfl)
theorem r16 (β : Fin 32) (d e : Fin 256) (k : Fin 1024) : ridx_main_v16 (ix3 β d e) k = ix3 β k e :=
  funext fun a => Fin.ext (by match a with | ⟨0, _⟩ => rfl | ⟨1, _⟩ => rfl | ⟨2, _⟩ => rfl)
theorem i23 (β : Fin 32) (d e : Fin 256) : idx_main_v23 (ix3 β d e) = ix3 β (0 : Fin 1) e :=
  funext fun a => Fin.ext (by match a with | ⟨0, _⟩ => rfl | ⟨1, _⟩ => rfl | ⟨2, _⟩ => rfl)
theorem i19 (β : Fin 32) (z : Fin 1) (e : Fin 256) : idx_main_v19 (ix3 β z e) = ix2 β e :=
  funext fun a => Fin.ext (by match a with | ⟨0, _⟩ => rfl | ⟨1, _⟩ => rfl)
theorem i18 (β : Fin 32) (e : Fin 256) (k : Fin 256) : idx_main_v18 (ix2 β e) k = ix3 β k e :=
  funext fun a => Fin.ext (by match a with | ⟨0, _⟩ => rfl | ⟨1, _⟩ => rfl | ⟨2, _⟩ => rfl)
theorem l25 (β : Fin 32) (t : Fin 1024) (e k : Fin 256) : lidx_main_v25 (ix3 β t e) k = ix3 β t k :=
  funext fun a => Fin.ext (by match a with | ⟨0, _⟩ => rfl | ⟨1, _⟩ => rfl | ⟨2, _⟩ => rfl)
theorem r25 (β : Fin 32) (t : Fin 1024) (e k : Fin 256) : ridx_main_v25 (ix3 β t e) k = ix3 β k e :=
  funext fun a => Fin.ext (by match a with | ⟨0, _⟩ => rfl | ⟨1, _⟩ => rfl | ⟨2, _⟩ => rfl)
theorem l28 (β : Fin 32) (t : Fin 1024) (j : Fin 20) (k : Fin 256) : lidx_main_v28 (ix3 β t j) k = ix3 β t k :=
  funext fun a => Fin.ext (by match a with | ⟨0, _⟩ => rfl | ⟨1, _⟩ => rfl | ⟨2, _⟩ => rfl)
theorem r28 (β : Fin 32) (t : Fin 1024) (j : Fin 20) (k : Fin 256) : ridx_main_v28 (ix3 β t j) k = ix2 j k :=
  funext fun a => Fin.ext (by match a with | ⟨0, _⟩ => rfl | ⟨1, _⟩ => rfl)
theorem l30 (β : Fin 32) (t : Fin 1024) (j : Fin 20) (k : Fin 256) : lidx_main_v30 (ix3 β t j) k = ix3 β t k :=
  funext fun a => Fin.ext (by match a with | ⟨0, _⟩ => rfl | ⟨1, _⟩ => rfl | ⟨2, _⟩ => rfl)
theorem r30 (β : Fin 32) (t : Fin 1024) (j : Fin 20) (k : Fin 256) : ridx_main_v30 (ix3 β t j) k = ix2 j k :=
  funext fun a => Fin.ext (by match a with | ⟨0, _⟩ => rfl | ⟨1, _⟩ => rfl)
theorem l32 (β : Fin 32) (t : Fin 1024) (j : Fin 20) (k : Fin 256) : lidx_main_v32 (ix3 β t j) k = ix3 β t k :=
  funext fun a => Fin.ext (by match a with | ⟨0, _⟩ => rfl | ⟨1, _⟩ => rfl | ⟨2, _⟩ => rfl)
theorem r32 (β : Fin 32) (t : Fin 1024) (j : Fin 20) (k : Fin 256) : ridx_main_v32 (ix3 β t j) k = ix2 j k :=
  funext fun a => Fin.ext (by match a with | ⟨0, _⟩ => rfl | ⟨1, _⟩ => rfl)

/-! ## The unit tokens -/

/-- The first sequence's unit tokens: the quotient by the clamped root is the spec's product. -/
theorem unit_a (A : Seqs) (β : Fin 32) (t : Fin 1024) (d : Fin 256) :
    val_main_v7 (F := Ideal) A (ix3 β t d) = unit (slice A β) t d := by
  rw [val_main_v7_apply, val_main_v6_apply, val_main_v5_apply, val_main_v4_apply, val_main_v2_apply, val_main_v3_apply,
    val_main_cst_0_apply, val_main_v1_apply, val_main_cst_apply, i6, i2]
  simp only [i1, val_main_v0_apply, Ideal.hostDivf_def, Ideal.hostUnary_sqrt_def, Ideal.maximumf_def, Ideal.mulf_def,
    Ideal.ofBits_def, Ideal.ofBits_zero_f32, zero_add]
  exact NormLaws.div_sqrt _ _ (NormLaws.clamp_pos _)

/-- The second sequence's unit tokens. -/
theorem unit_b (B : Seqs) (β : Fin 32) (t : Fin 1024) (d : Fin 256) :
    val_main_v15 (F := Ideal) B (ix3 β t d) = unit (slice B β) t d := by
  rw [val_main_v15_apply, val_main_v14_apply, val_main_v13_apply, val_main_v12_apply, val_main_v10_apply, val_main_v11_apply,
    val_main_cst_2_apply, val_main_v9_apply, val_main_cst_1_apply, i14, i10]
  simp only [i9, val_main_v8_apply, Ideal.hostDivf_def, Ideal.hostUnary_sqrt_def, Ideal.maximumf_def, Ideal.mulf_def,
    Ideal.ofBits_def, Ideal.ofBits_zero_f32, zero_add]
  exact NormLaws.div_sqrt _ _ (NormLaws.clamp_pos _)

/-! ## The correlation, its unit columns, and the mix -/

theorem corr_eq (A B : Seqs) (β : Fin 32) (d e : Fin 256) :
    val_main_v16 (F := Ideal) A B (ix3 β d e) = corr (slice A β) (slice B β) d e := by
  rw [val_main_v16_apply]
  refine Finset.sum_congr rfl fun k _ => ?_
  rw [l16, r16, unit_a, unit_b]

theorem corrN_eq (A B : Seqs) (β : Fin 32) (d e : Fin 256) :
    val_main_v24 (F := Ideal) A B (ix3 β d e) = corrN (slice A β) (slice B β) d e := by
  rw [val_main_v24_apply, val_main_v23_apply, val_main_v22_apply, val_main_v21_apply, val_main_v19_apply, val_main_v20_apply,
    val_main_cst_4_apply, val_main_v18_apply, val_main_cst_3_apply, i23, i19]
  simp only [i18, val_main_v17_apply, corr_eq, Ideal.hostDivf_def, Ideal.hostUnary_sqrt_def, Ideal.maximumf_def,
    Ideal.mulf_def, Ideal.ofBits_def, Ideal.ofBits_zero_f32, zero_add]
  exact NormLaws.div_sqrt _ _ (NormLaws.clamp_pos _)

theorem mix_eq (A B : Seqs) (β : Fin 32) (t : Fin 1024) (e : Fin 256) :
    val_main_v25 (F := Ideal) A B (ix3 β t e) = mix (slice A β) (slice B β) t e := by
  rw [val_main_v25_apply]
  refine Finset.sum_congr rfl fun k _ => ?_
  rw [l25, r25, unit_b, corrN_eq]

/-! ## The three weighted feature sums and the result -/

theorem num_eq (A B : Seqs) (W : Wts) (β : Fin 32) (t : Fin 1024) (j : Fin 20) :
    val_main_v28 (F := Ideal) A B W (ix3 β t j)
      = proj (fun t d => slice A β t d * mix (slice A β) (slice B β) t d) (wsq W) t j := by
  rw [val_main_v28_apply]
  refine Finset.sum_congr rfl fun k _ => ?_
  rw [l28, r28, val_main_v27_apply, val_main_v26_apply, mix_eq]
  rfl

theorem sa_eq (A : Seqs) (W : Wts) (β : Fin 32) (t : Fin 1024) (j : Fin 20) :
    val_main_v30 (F := Ideal) A W (ix3 β t j) = proj (fun t d => slice A β t d * slice A β t d) (wsq W) t j := by
  rw [val_main_v30_apply]
  refine Finset.sum_congr rfl fun k _ => ?_
  rw [l30, r30, val_main_v29_apply, val_main_v26_apply]
  rfl

theorem sh_eq (A B : Seqs) (W : Wts) (β : Fin 32) (t : Fin 1024) (j : Fin 20) :
    val_main_v32 (F := Ideal) A B W (ix3 β t j)
      = proj (fun t d => mix (slice A β) (slice B β) t d * mix (slice A β) (slice B β) t d) (wsq W) t j := by
  rw [val_main_v32_apply]
  refine Finset.sum_congr rfl fun k _ => ?_
  rw [l32, r32, val_main_v31_apply, val_main_v26_apply, mix_eq]
  rfl

/-- THE REFERENCE'S RESULT at `(β, t, j)`: the quotient by the product of the two clamped roots is the spec's
    product with the two reciprocal roots. -/
theorem result_eq (A B : Seqs) (W : Wts) (β : Fin 32) (t : Fin 1024) (j : Fin 20) :
    val_main_v40 (F := Ideal) A B W (ix3 β t j) = persp (slice A β) (slice B β) (wsq W) t j := by
  rw [val_main_v40_apply, val_main_v39_apply, val_main_v35_apply, val_main_v38_apply, val_main_v34_apply, val_main_v37_apply,
    val_main_v33_apply, val_main_v36_apply, val_main_cst_5_apply, val_main_cst_6_apply, num_eq, sa_eq, sh_eq]
  simp only [Ideal.hostDivf_def, Ideal.hostUnary_sqrt_def, Ideal.maximumf_def, Ideal.mulf_def, Ideal.ofBits_def]
  exact NormLaws.div_sqrt_mul_sqrt _ _ _ (NormLaws.clamp_pos _) (NormLaws.clamp_pos _)

/-- THE REFERENCE'S RESULT ARRAY is the spec's batched result of its three arguments. -/
theorem reference_eq (A B : Seqs) (W : Wts) : val_main_v40 (F := Ideal) A B W = Spec.result A B W := by
  funext i
  obtain ⟨β, t, j, rfl⟩ : ∃ (β : Fin 32) (t : Fin 1024) (j : Fin 20), i = ix3 β t j := ⟨i 0, i 1, i 2, eq_ix3 i⟩
  exact result_eq A B W β t j

end Cert.RefStages

end
-- ==== Proof.lean ====
/-
  The kernel and its reference compute, per batch element, the per-token cosine between a sequence and the
  other sequence carried through their normalised feature correlation, for twenty weightings of the features
  (Proof/Spec.lean writes the function out: `unit`, `corr`, `corrN`, `mix`, `proj`, `persp`, and the batched
  `result`).  Read over the extended reals, where a change of float format is the identity and every sum and
  matrix product is the exact sum, the two programs differ in one respect only: the kernel multiplies by the
  reciprocal root `1/√(max s ε)` where the reference divides by the root `√(max s ε)`, and at the end multiplies
  by two reciprocal roots where the reference divides by the product of the two roots.  Because the clamp
  constant `ε` is positive, `max s ε` is a positive real or `+∞` whatever `s` is, and there the two forms agree
  for every extended-real numerator (Proof/NormLaws.lean) — so the equality needs nothing of the inputs.

  Kernel side: the body's stored value at an index of its block is `persp` of the block's batch element
  (Proof/KernelOps.lean, Proof/KernelDots.lean, Proof/KernelPayload.lean); the sixteen blocks tile the result
  array, the weight table staged being the transposed square of the parameter (Proof/Blocks.lean).
  Reference side: its result read at an index is the same `persp` (Proof/RefStages.lean).  The frames are the
  generated ones; the idealization rewrote nothing, so there is nothing to preserve.
-/
import proofs.«145992_j19155554140815_2_alg».proof.Defs
import proofs.«145992_j19155554140815_2_alg».proof.Proof.Gen.Kernel
import proofs.«145992_j19155554140815_2_alg».proof.Proof.Gen.Kernel.Skeleton
import proofs.«145992_j19155554140815_2_alg».proof.Proof.Gen.Kernel.Launch
import proofs.«145992_j19155554140815_2_alg».proof.Proof.Gen.Kernel.Points
import proofs.«145992_j19155554140815_2_alg».proof.Proof.Gen.Kernel.Frame
import proofs.«145992_j19155554140815_2_alg».proof.Proof.Gen.KernelIdeal
import proofs.«145992_j19155554140815_2_alg».proof.Proof.Gen.KernelIdeal.Skeleton
import proofs.«145992_j19155554140815_2_alg».proof.Proof.Gen.KernelIdeal.Launch
import proofs.«145992_j19155554140815_2_alg».proof.Proof.Gen.KernelIdeal.Points
import proofs.«145992_j19155554140815_2_alg».proof.Proof.Gen.KernelIdeal.Frame
import proofs.«145992_j19155554140815_2_alg».proof.Proof.Gen.ReferenceIdeal
import proofs.«145992_j19155554140815_2_alg».proof.Proof.Gen.Pre_finite_inputs
import proofs.«145992_j19155554140815_2_alg».proof.Proof.Gen.KernelIdeal.Value
import proofs.«145992_j19155554140815_2_alg».proof.Proof.Gen.ReferenceIdeal.Run
import proofs.«145992_j19155554140815_2_alg».proof.Proof.Gen.ReferenceIdeal.Read
import proofs.«145992_j19155554140815_2_alg».proof.Proof.Blocks
import proofs.«145992_j19155554140815_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the three arguments both programs end with both of their results at the spec's
    batched result of those arguments. -/
theorem algebraic : Cert.algebraic_KernelIdeal_ReferenceIdeal := by
  intro m ρ m' ρ' _ hagree
  refine ⟨fun c => Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1, (h c).1, (h c).2⟩) (Cert.Blocks.run m ρ)
  · refine (θ_run Cert.ReferenceIdeal.defs _ _).mono (fun r h c => ?_) (Cert.ReferenceIdeal.Value.run (F := Ideal) m' ρ')
    have e : Cert.ReferenceIdeal.Value.res_main_v40 m' c
        = Spec.result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) := by
      rw [Cert.ReferenceIdeal.Read.val_main_v40_eq, Cert.RefStages.reference_eq, (hagree c).1, (hagree c).2.1, (hagree c).2.2]
    exact ⟨(h c).1.trans e, (h c).2.1.trans e, (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
